-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S64x32 .f32) (main_arg9 : FVec F S32 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x32 .f32) (main_arg9 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x32 .f32) (main_arg9 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 119
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x1, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S100000x64, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x64, .f32⟩
  | .hbm, ⟨94, _⟩ => ⟨S1700000x1, .f32⟩
  | .hbm, ⟨95, _⟩ => ⟨S1700000x64, .f32⟩
  | .hbm, ⟨96, _⟩ => ⟨S1700000x64, .f32⟩
  | .hbm, ⟨97, _⟩ => ⟨S_, .f32⟩
  | .hbm, ⟨98, _⟩ => ⟨S100000x64, .f32⟩
  | .hbm, ⟨99, _⟩ => ⟨S1700000x1, .i32⟩
  | .hbm, ⟨100, _⟩ => ⟨S100000x64, .f32⟩
  | .hbm, ⟨101, _⟩ => ⟨S100000x32, .f32⟩
  | .hbm, ⟨102, _⟩ => ⟨S_, .i32⟩
  | .hbm, ⟨103, _⟩ => ⟨S1700000, .i32⟩
  | .hbm, ⟨104, _⟩ => ⟨S1700000, .i1⟩
  | .hbm, ⟨105, _⟩ => ⟨S_, .i32⟩
  | .hbm, ⟨106, _⟩ => ⟨S1700000, .i32⟩
  | .hbm, ⟨107, _⟩ => ⟨S1700000, .i32⟩
  | .hbm, ⟨108, _⟩ => ⟨S1700000, .i32⟩
  | .hbm, ⟨109, _⟩ => ⟨S1700000x1, .i32⟩
  | .hbm, ⟨110, _⟩ => ⟨S1700000x32, .f32⟩
  | .hbm, ⟨111, _⟩ => ⟨S1700000x1, .f32⟩
  | .hbm, ⟨112, _⟩ => ⟨S1700000x32, .f32⟩
  | .hbm, ⟨113, _⟩ => ⟨S1700000x32, .f32⟩
  | .hbm, ⟨114, _⟩ => ⟨S_, .f32⟩
  | .hbm, ⟨115, _⟩ => ⟨S100000x32, .f32⟩
  | .hbm, ⟨116, _⟩ => ⟨S1700000x1, .i32⟩
  | .hbm, ⟨117, _⟩ => ⟨S100000x32, .f32⟩
  | .hbm, ⟨118, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64, .f32⟩
  | .local _ .vmem, ⟨20, _⟩ => ⟨S64x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S32, .f32⟩
  | .local _ .vmem, ⟨26, _⟩ => ⟨S10000x32, .f32⟩
  | .local _ .vmem, ⟨27, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_c_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_c_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S10000x32_S10000x32 : S10000x32.ShapeCasts S10000x32
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x32.size a ≤ S100000x32.size a
  hwx3_3 : ∀ i : grid3.Coords, EltTy.bits .f32 = 32 ∨ (Rect.block (s := S100000x32) S10000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32.size a ≤ S32.size a
  hwx4_1 : ∀ i : grid4.Coords, EltTy.bits .f32 = 32 ∨ (Rect.block (s := S32) S32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S100000x32.size a
  hwx4_2 : ∀ i : grid4.Coords, EltTy.bits .f32 = 32 ∨ (Rect.block (s := S100000x32) S10000x32.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S10000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v85) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x32, .f32⟩
  | 9 => ⟨S32, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x64, .f32⟩
  | 83 => ⟨S1700000x1, .f32⟩
  | 84 => ⟨S1700000x64, .f32⟩
  | 85 => ⟨S1700000x64, .f32⟩
  | 86 => ⟨S_, .f32⟩
  | 87 => ⟨S100000x64, .f32⟩
  | 88 => ⟨S1700000x1, .i32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x64, .f32⟩
  | 106 => ⟨S1700000x1, .f32⟩
  | 107 => ⟨S1700000x64, .f32⟩
  | 108 => ⟨S1700000x64, .f32⟩
  | 109 => ⟨S_, .f32⟩
  | 110 => ⟨S100000x64, .f32⟩
  | 111 => ⟨S1700000x1, .i32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x32, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x128, .f32⟩

abbrev hbmTy0_1 (i : Nat) : BufTy := match i % 128 with
  | 0 => ⟨S1700000x32, .f32⟩
  | 1 => ⟨S1700000x1, .f32⟩
  | 2 => ⟨S1700000x32, .f32⟩
  | 3 => ⟨S1700000x32, .f32⟩
  | 4 => ⟨S_, .f32⟩
  | 5 => ⟨S100000x32, .f32⟩
  | 6 => ⟨S1700000x1, .i32⟩
  | 7 => ⟨S100000x32, .f32⟩
  | 8 => ⟨S1x32, .f32⟩
  | 9 => ⟨S100000x32, .f32⟩
  | 10 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_c_15 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel program's run, with the contents of EVERY unscoped buffer at the end named.

  @main is twelve segments: three stretches of host operations (the source and destination numbers with the self-loops
  appended, the degrees, the factors and the weights), then five kernel regions with a stretch of host operations (one
  aggregation step) before each of the last four. The buffer contents at each segment boundary are the fold `W0 … W12`
  through those segments: a stretch's operations applied to the contents it is entered from, a region's arrays at what its
  write-backs leave and every other buffer as entered. Every weakly fair execution terminates, nothing faulting, and ends with
  every unscoped buffer at the last contents of that fold, `W12`; in particular the result buffer holds `W12` at its
  reference and the ten argument arrays are as launched.
-/
import proofs.«162772_j27023934226652_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same run, read at the result buffer and at the ten argument arrays. -/
theorem run_result : θ_run defs (onTc (τ := τ) (main (F := F))) ⟨m, fun _ => 0, ρ⟩ (fun r => ∀ c : Dev nD,
      r.2.mem ((c.tc : Thread nD τ).loc main_v86) = W12 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v86 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)
    (run_all m ρ)

end Cert.KernelIdeal.Run

end
-- ==== Proof.GraphNet.lean ====
/-
  The network both programs compute, as ONE function of the ten argument arrays.

  Nodes are numbered 0 … 99999; the edge list has 1600000 columns, row 0 the sources and row 1 the destinations. To the
  edges every node's self-loop is appended (`srcs`, `dsts`: 1700000 entries each). The degree of a node counts the
  entries of `dsts` equal to it (`deg`), its factor is `1/sqrt deg` where the degree is positive and 0 elsewhere
  (`dinv`), and an entry's weight is the product of the factors of its two ends (`weight`). One aggregation step
  (`agg64`, `agg32`) gathers the rows of a node table at the sources (a negative number counted from the end: `wrap`),
  scales each gathered row by its entry's weight, and adds it into the row of its destination, starting from zero.
  A layer is a dense product with the layer's matrix (`lin128`, `lin64`, `lin32`) followed by an aggregation;
  between layers the layer's bias is added and negatives are cut to zero (`act64`); after the last aggregation only the
  bias is added (`net`).
-/
import proofs.«162772_j27023934226652_1_alg».proof.ReferenceIdeal

noncomputable section

namespace Cert.GraphNet

open Idealize.ShloMosaic Cert.ReferenceIdeal

variable {F : FTy → Type} [FloatOps F] [Cert.ReferenceIdeal.Facts]
open Cert.ReferenceIdeal.Facts₀ Cert.ReferenceIdeal.Facts

/-- Row `r` of the edge list followed by every node's own number. -/
def srcs (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

def dsts (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node number counts from the end. -/
def wrap (r : IVec S1700000 32) : IVec S1700000 32 :=
  select (cmpi .slt r (broadcastInDim S1700000 ![] bcast_S_S1700000 (constantI S_ 32 0#32))) (addi r (broadcastInDim S1700000 ![] bcast_S_S1700000 (constantI S_ 32 100000#32))) r

/-- How many entries of `dsts` name each node. -/
def deg (e : IVec S2x1600000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dsts e)) (broadcastInDim S1700000 ![] bcast_S_S1700000 (constant S_ .f32 0x3F800000#32))

/-- `1/sqrt deg` where the degree is positive, 0 elsewhere. -/
def dinv (e : IVec S2x1600000 32) : FVec F S100000 .f32 :=
  select (cmpf .ogt (deg (F := F) e) (broadcastInDim S100000 ![] bcast_S_S100000 (constant S_ .f32 0x00000000#32))) (Host.rsqrt (deg (F := F) e)) (broadcastInDim S100000 ![] bcast_S_S100000 (id (constant S_ .f32 0x00000000#32)))

/-- An entry's weight: the product of the factors of its source and its destination. -/
def weight (e : IVec S2x1600000 32) : FVec F S1700000 .f32 :=
  mulf (Host.gather gather_S100000_S1700000x1_S1700000_n_0_n_n_0_1_1 (dinv (F := F) e) (broadcastInDim S1700000x1 ![0] bcast_S1700000_S1700000x1_0 (wrap (srcs e))))
    (Host.gather gather_S100000_S1700000x1_S1700000_n_0_n_n_0_1_1 (dinv (F := F) e) (broadcastInDim S1700000x1 ![0] bcast_S1700000_S1700000x1_0 (wrap (dsts e))))

/-- One aggregation step of a table of 64 columns, with the source numbers, destination numbers and weights given. -/
def aggWith64 (s d : IVec S1700000 32) (w : FVec F S1700000 .f32) (h : FVec F S100000x64 .f32) : FVec F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d)
    (mulf (Host.gather gather_S100000x64_S1700000x1_S1700000x64_1_0_n_n_0_1_164 h (broadcastInDim S1700000x1 ![0] bcast_S1700000_S1700000x1_0 (wrap s)))
      (broadcastInDim S1700000x64 ![0, 1] bcast_S1700000x1_S1700000x64_0_1 (broadcastInDim S1700000x1 ![0] bcast_S1700000_S1700000x1_0 w)))

/-- The same for a table of 32 columns. -/
def aggWith32 (s d : IVec S1700000 32) (w : FVec F S1700000 .f32) (h : FVec F S100000x32 .f32) : FVec F S100000x32 .f32 :=
  Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 d)
    (mulf (Host.gather gather_S100000x32_S1700000x1_S1700000x32_1_0_n_n_0_1_132 h (broadcastInDim S1700000x1 ![0] bcast_S1700000_S1700000x1_0 (wrap s)))
      (broadcastInDim S1700000x32 ![0, 1] bcast_S1700000x1_S1700000x32_0_1 (broadcastInDim S1700000x1 ![0] bcast_S1700000_S1700000x1_0 w)))

def agg64 (e : IVec S2x1600000 32) (h : FVec F S100000x64 .f32) : FVec F S100000x64 .f32 :=
  aggWith64 (srcs e) (dsts e) (weight (F := F) e) h

def agg32 (e : IVec S2x1600000 32) (h : FVec F S100000x32 .f32) : FVec F S100000x32 .f32 :=
  aggWith32 (srcs e) (dsts e) (weight (F := F) e) h

/-- Add a layer's bias along every row and cut negatives to zero. -/
def act64 (a : FVec F S100000x64 .f32) (b : FVec F S64 .f32) : FVec F S100000x64 .f32 :=
  maximumf (addf a (broadcastInDim S100000x64 ![0, 1] bcast_S1x64_S100000x64_0_1 (broadcastInDim S1x64 ![1] bcast_S64_S1x64_1 b)))
    (broadcastInDim S100000x64 ![] bcast_S_S100000x64 (constant S_ .f32 0x00000000#32))

def lin128 (x : FVec F S100000x128 .f32) (w : FVec F S128x64 .f32) : FVec F S100000x64 .f32 :=
  Host.dotGeneral dot_S100000x128_S128x64_S100000x64_1_0_0_1_n_n none x w

def lin64 (a : FVec F S100000x64 .f32) (w : FVec F S64x64 .f32) : FVec F S100000x64 .f32 :=
  Host.dotGeneral dot_S100000x64_S64x64_S100000x64_1_0_0_1_n_n none a w

def lin32 (a : FVec F S100000x64 .f32) (w : FVec F S64x32 .f32) : FVec F S100000x32 .f32 :=
  Host.dotGeneral dot_S100000x64_S64x32_S100000x32_1_0_0_1_n_n none a w

/-- The last step: the bias of 32 entries added along every row. -/
def addBias32 (a : FVec F S100000x32 .f32) (b : FVec F S32 .f32) : FVec F S100000x32 .f32 :=
  addf a (broadcastInDim S100000x32 ![0, 1] bcast_S1x32_S100000x32_0_1 (broadcastInDim S1x32 ![1] bcast_S32_S1x32_1 b))

/-- Four layers. -/
def net (x : FVec F S100000x128 .f32) (e : IVec S2x1600000 32) (w1 : FVec F S128x64 .f32) (b1 : FVec F S64 .f32)
    (w2 : FVec F S64x64 .f32) (b2 : FVec F S64 .f32) (w3 : FVec F S64x64 .f32) (b3 : FVec F S64 .f32)
    (w4 : FVec F S64x32 .f32) (b4 : FVec F S32 .f32) : FVec F S100000x32 .f32 :=
  addBias32 (agg32 e (lin32 (act64 (agg64 e (lin64 (act64 (agg64 e (lin64 (act64 (agg64 e (lin128 x w1)) b1) w2)) b2) w3)) b3) w4)) b4

end Cert.GraphNet

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.TileRows.lean ====
/-
  The dense steps read at one row and one column, on both sides.

  A layer's dense product of the table `X` with the matrix `W`, at row `i` and column `q`, is the sum over `k` of
  `X (i, k) · W (k, q)`; where the bias `b` is added and negatives are cut first, the factor is `max (X (i, k) + b k) 0`.
  The same holds for a tile of 10000 rows as the kernels compute it (a change of float format is the identity on the
  extended reals, and the product is accumulated onto zero), with the tile's own row number. The last step adds the bias
  of 32 entries along a row, whole table or tile.
-/
import proofs.«162772_j27023934226652_1_alg».proof.Proof.LibDenseRows
import proofs.«162772_j27023934226652_1_alg».proof.Proof.GraphNet
import proofs.«162772_j27023934226652_1_alg».proof.Proof.Gen.KernelIdeal.Skeleton
import Idealize.ShloMosaic.Lib.IdealHost

noncomputable section

namespace Cert.TileRows

open Idealize.ShloMosaic Idealize.ShloMosaic.ValueIdx
open scoped BigOperators

/-! ## The whole tables -/

section Whole

open Cert.ReferenceIdeal
variable [Cert.ReferenceIdeal.Facts]
open Cert.ReferenceIdeal.Facts₀ Cert.ReferenceIdeal.Facts

theorem lin128_apply (X : FVec Ideal S100000x128 .f32) (W : FVec Ideal S128x64 .f32) (i : Fin 100000) (q : Fin 64) :
    Cert.GraphNet.lin128 X W (ix2 i q) = ∑ k : Fin 128, X (ix2 i k) * W (ix2 k q) := by
  unfold Cert.GraphNet.lin128
  exact Cert.DenseRows.dotGeneral_plain_apply dot_S100000x128_S128x64_S100000x64_1_0_0_1_n_n rfl rfl rfl rfl (fun _ _ => rfl) (fun _ _ => rfl) X W i q

theorem act64_apply (X : FVec Ideal S100000x64 .f32) (b : FVec Ideal S64 .f32) (i : Fin 100000) (k : Fin 64) :
    Cert.GraphNet.act64 X b (ix2 i k) = max (X (ix2 i k) + b (ix1 k)) (Ideal.ofBits .f32 0x00000000#32) := by
  unfold Cert.GraphNet.act64
  show max (X (ix2 i k) + broadcastInDim S100000x64 ![0, 1] bcast_S1x64_S100000x64_0_1 (broadcastInDim S1x64 ![1] bcast_S64_S1x64_1 b) (ix2 i k))
      (broadcastInDim S100000x64 ![] bcast_S_S100000x64 (constant (F := Ideal) S_ .f32 0x00000000#32) (ix2 i k)) = _
  rw [Cert.DenseRows.rowBias_inDim_apply, broadcastInDim_scalar_apply]
  rfl

theorem lin64_act_apply (X : FVec Ideal S100000x64 .f32) (b : FVec Ideal S64 .f32) (W : FVec Ideal S64x64 .f32) (i : Fin 100000) (q : Fin 64) :
    Cert.GraphNet.lin64 (Cert.GraphNet.act64 X b) W (ix2 i q)
      = ∑ k : Fin 64, max (X (ix2 i k) + b (ix1 k)) (Ideal.ofBits .f32 0x00000000#32) * W (ix2 k q) := by
  unfold Cert.GraphNet.lin64
  refine (Cert.DenseRows.dotGeneral_plain_apply dot_S100000x64_S64x64_S100000x64_1_0_0_1_n_n rfl rfl rfl rfl (fun _ _ => rfl) (fun _ _ => rfl) (Cert.GraphNet.act64 X b) W i q).trans ?_
  refine Finset.sum_congr rfl fun k _ => ?_
  rw [act64_apply]

theorem lin32_act_apply (X : FVec Ideal S100000x64 .f32) (b : FVec Ideal S64 .f32) (W : FVec Ideal S64x32 .f32) (i : Fin 100000) (q : Fin 32) :
    Cert.GraphNet.lin32 (Cert.GraphNet.act64 X b) W (ix2 i q)
      = ∑ k : Fin 64, max (X (ix2 i k) + b (ix1 k)) (Ideal.ofBits .f32 0x00000000#32) * W (ix2 k q) := by
  unfold Cert.GraphNet.lin32
  refine (Cert.DenseRows.dotGeneral_plain_apply dot_S100000x64_S64x32_S100000x32_1_0_0_1_n_n rfl rfl rfl rfl (fun _ _ => rfl) (fun _ _ => rfl) (Cert.GraphNet.act64 X b) W i q).trans ?_
  refine Finset.sum_congr rfl fun k _ => ?_
  rw [act64_apply]

theorem addBias32_apply (A : FVec Ideal S100000x32 .f32) (b : FVec Ideal S32 .f32) (i : Fin 100000) (q : Fin 32) :
    Cert.GraphNet.addBias32 A b (ix2 i q) = A (ix2 i q) + b (ix1 q) := by
  unfold Cert.GraphNet.addBias32
  show A (ix2 i q) + broadcastInDim S100000x32 ![0, 1] bcast_S1x32_S100000x32_0_1 (broadcastInDim S1x32 ![1] bcast_S32_S1x32_1 b) (ix2 i q) = _
  rw [Cert.DenseRows.rowBias_inDim_apply]

end Whole

/-! ## The kernels' tiles -/

section Tiles

open Cert.KernelIdeal
open Cert.KernelIdeal.Gen (k0_pay1 k1_pay1 k2_pay1 k3_pay1 k4_pay1)
open Cert.KernelIdeal.Facts₀ Cert.KernelIdeal.Facts

theorem tile0_apply (x0 : Vec Ideal S10000x128 .f32) (w : Vec Ideal S128x64 .f32) (p : Fin 10000) (q : Fin 64) :
    k0_pay1 x0 w (ix2 p q) = ∑ k : Fin 128, x0 (ix2 p k) * w (ix2 k q) := by
  unfold k0_pay1
  exact Cert.DenseRows.matmul_zero_plain_apply dot_S10000x128_S128x64_S10000x64_1_0_0_1_n_n rfl rfl rfl rfl (fun _ _ => rfl) (fun _ _ => rfl)
    (truncf .bf16 x0 bitsLt_bf16_f32) (truncf .bf16 w bitsLt_bf16_f32) p q

/-- The factor of a tile's row after the bias and the cut. -/
theorem tileAct64_apply (x0 : Vec Ideal S10000x64 .f32) (b : Vec Ideal S64 .f32) (p : Fin 10000) (k : Fin 64) :
    maximumf (addf (shapeCast S10000x64 x0 shapeCasts_S10000x64_S10000x64) (broadcastTo S10000x64 (shapeCast S1x64 b shapeCasts_S64_S1x64) broadcasts_S1x64_S10000x64))
        (broadcast S10000x64 (Scalar.ofBits (F := Ideal) .f32 0x00000000#32)) (ix2 p k)
      = max (x0 (ix2 p k) + b (ix1 k)) (Ideal.ofBits .f32 0x00000000#32) := by
  show max (shapeCast S10000x64 x0 shapeCasts_S10000x64_S10000x64 (ix2 p k) + broadcastTo S10000x64 (shapeCast S1x64 b shapeCasts_S64_S1x64) broadcasts_S1x64_S10000x64 (ix2 p k))
      (Ideal.ofBits .f32 0x00000000#32) = _
  rw [shapeCast_self, Cert.DenseRows.rowBias_cast_apply]

theorem tile1_apply (x0 : Vec Ideal S10000x64 .f32) (b : Vec Ideal S64 .f32) (w : Vec Ideal S64x64 .f32) (p : Fin 10000) (q : Fin 64) :
    k1_pay1 x0 b w (ix2 p q) = ∑ k : Fin 64, max (x0 (ix2 p k) + b (ix1 k)) (Ideal.ofBits .f32 0x00000000#32) * w (ix2 k q) := by
  unfold k1_pay1
  refine (Cert.DenseRows.matmul_zero_plain_apply dot_S10000x64_S64x64_S10000x64_1_0_0_1_n_n rfl rfl rfl rfl (fun _ _ => rfl) (fun _ _ => rfl) _ _ p q).trans ?_
  refine Finset.sum_congr rfl fun k _ => ?_
  exact congrArg (· * w (ix2 k q)) (tileAct64_apply x0 b p k)

theorem tile2_apply (x0 : Vec Ideal S10000x64 .f32) (b : Vec Ideal S64 .f32) (w : Vec Ideal S64x64 .f32) (p : Fin 10000) (q : Fin 64) :
    k2_pay1 x0 b w (ix2 p q) = ∑ k : Fin 64, max (x0 (ix2 p k) + b (ix1 k)) (Ideal.ofBits .f32 0x00000000#32) * w (ix2 k q) := by
  unfold k2_pay1
  refine (Cert.DenseRows.matmul_zero_plain_apply dot_S10000x64_S64x64_S10000x64_1_0_0_1_n_n rfl rfl rfl rfl (fun _ _ => rfl) (fun _ _ => rfl) _ _ p q).trans ?_
  refine Finset.sum_congr rfl fun k _ => ?_
  exact congrArg (· * w (ix2 k q)) (tileAct64_apply x0 b p k)

theorem tile3_apply (x0 : Vec Ideal S10000x64 .f32) (b : Vec Ideal S64 .f32) (w : Vec Ideal S64x32 .f32) (p : Fin 10000) (q : Fin 32) :
    k3_pay1 x0 b w (ix2 p q) = ∑ k : Fin 64, max (x0 (ix2 p k) + b (ix1 k)) (Ideal.ofBits .f32 0x00000000#32) * w (ix2 k q) := by
  unfold k3_pay1
  refine (Cert.DenseRows.matmul_zero_plain_apply dot_S10000x64_S64x32_S10000x32_1_0_0_1_n_n rfl rfl rfl rfl (fun _ _ => rfl) (fun _ _ => rfl) _ _ p q).trans ?_
  refine Finset.sum_congr rfl fun k _ => ?_
  exact congrArg (· * w (ix2 k q)) (tileAct64_apply x0 b p k)

theorem tile4_apply (x0 : Vec Ideal S10000x32 .f32) (b : Vec Ideal S32 .f32) (p : Fin 10000) (q : Fin 32) :
    k4_pay1 x0 b (ix2 p q) = x0 (ix2 p q) + b (ix1 q) := by
  unfold k4_pay1
  show shapeCast S10000x32 x0 shapeCasts_S10000x32_S10000x32 (ix2 p q) + broadcastTo S10000x32 (shapeCast S1x32 b shapeCasts_S32_S1x32) broadcasts_S1x32_S10000x32 (ix2 p q) = _
  rw [shapeCast_self, Cert.DenseRows.rowBias_cast_apply]

end Tiles

end Cert.TileRows

end
-- ==== Proof.Region0.lean ====
/-
  Region 0 of the kernel program: the node table of 128 columns times the first layer's matrix, computed in ten tiles of
  10000 rows. Tile `t` reads rows `10000·t … 10000·t + 9999` of the table and the whole matrix, and writes the same rows of
  the result; the ten tiles cover the result, which therefore ends holding the dense product of the WHOLE table as the
  region finds it.
-/
import proofs.«162772_j27023934226652_1_alg».proof.Proof.Gen.KernelIdeal.Frame
import proofs.«162772_j27023934226652_1_alg».proof.Proof.TileRows
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable [Cert.ReferenceIdeal.Facts]
variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the ten points: the table's tile moves with the result's, the matrix stays. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of ten thousand rows is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- The table's tile at point `t`: row `p` of the tile is row `i` of the table. -/
theorem read_0 (c : Dev nD) (t : Fin cfg0.N) (p : Fin 10000) (k : Fin 128) (i : Fin 100000)
    (hi : i.val = win0_2.index t (0 : Fin 2) * 10000 + p.val) :
    iblk0 V c 0 t (ix2 p k) = V c main_arg0 (ix2 i k) := by
  obtain ⟨e0, e1, e2, e3, e4, e5⟩ := idx_facts t
  show V c main_arg0 (((cfg0.win 0).blk t).view.emb (ix2 p k)) = V c main_arg0 (ix2 i k)
  refine congrArg _ ?_
  funext a; apply Fin.ext
  match a with
  | ⟨0, _⟩ => show win0_0.index t (0 : Fin 2) * 10000 + 1 * p.val = i.val; omega
  | ⟨1, _⟩ => show win0_0.index t (1 : Fin 2) * 128 + 1 * k.val = k.val; omega

/-- The matrix is read whole at every point. -/
theorem read_1 (c : Dev nD) (t : Fin cfg0.N) (k : Fin 128) (q : Fin 64) : iblk0 V c 1 t (ix2 k q) = V c main_arg2 (ix2 k q) := by
  obtain ⟨e0, e1, e2, e3, e4, e5⟩ := idx_facts t
  show V c main_arg2 (((cfg0.win 1).blk t).view.emb (ix2 k q)) = V c main_arg2 (ix2 k q)
  refine congrArg _ ?_
  funext a; apply Fin.ext
  match a with
  | ⟨0, _⟩ => show win0_1.index t (0 : Fin 2) * 128 + 1 * k.val = k.val; omega
  | ⟨1, _⟩ => show win0_1.index t (1 : Fin 2) * 64 + 1 * q.val = q.val; omega

/-- What point `t` writes back is block `t` of the dense product of the whole table. -/
theorem flushed_eq (c : Dev nD) (t : Fin cfg0.N) :
    (dat0 V c).flushed 2 t = ((cfg0.win 2).blk t).view.read (Elt Ideal)
      (Cert.GraphNet.lin128 (F := Ideal) (V c main_arg0) (V c main_arg2)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x64) hz2]
  obtain ⟨e0, e1, e2, e3, e4, e5⟩ := idx_facts t
  funext j
  obtain ⟨p, q, rfl⟩ : ∃ (p : Fin 10000) (q : Fin 64), j = ix2 p q := ⟨j 0, j 1, eq_ix2 j⟩
  have hp : p.val < 10000 := p.isLt
  refine (Cert.TileRows.tile0_apply (iblk0 V c 0 t) (iblk0 V c 1 t) p q).trans ?_
  have hE : ((cfg0.win 2).blk t).view.emb (ix2 p q)
      = ix2 (⟨win0_2.index t (0 : Fin 2) * 10000 + p.val, by omega⟩ : Fin 100000) q := by
    funext a; apply Fin.ext
    match a with
    | ⟨0, _⟩ => show win0_2.index t (0 : Fin 2) * 10000 + 1 * p.val = win0_2.index t (0 : Fin 2) * 10000 + p.val; omega
    | ⟨1, _⟩ => show win0_2.index t (1 : Fin 2) * 64 + 1 * q.val = q.val; omega
  show _ = Cert.GraphNet.lin128 (F := Ideal) (V c main_arg0) (V c main_arg2) (((cfg0.win 2).blk t).view.emb (ix2 p q))
  rw [hE, Cert.TileRows.lin128_apply]
  refine Finset.sum_congr rfl fun k _ => ?_
  rw [read_0 V c t p k ⟨win0_2.index t (0 : Fin 2) * 10000 + p.val, by omega⟩ rfl, read_1 V c t k q]

/-- An index of the result is in point `t`'s block iff each coordinate is in the block's range on its axis. -/
theorem mem_blk (c : Dev nD) (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row `r` of the result is in the block of point `r / 10000`. -/
theorem cover (c : Dev nD) (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk c]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the region, from the contents the region is entered with. -/
theorem final (c : Dev nD) : (dat0 V c).arrAt 2 cfg0.N = Cert.GraphNet.lin128 (F := Ideal) (V c main_arg0) (V c main_arg2) :=
  (dat0 V c).arrAt_eq_of_cover 2 _ (fun t _ => flushed_eq V c t) (cover c)

end Cert.KernelIdeal.Region0

end
-- ==== Proof.Region1.lean ====
/-
  Region 1 of the kernel program: a table of 64 columns plus the layer's bias, negatives cut to zero, times the layer's
  matrix of 64 columns, computed in ten tiles of 10000 rows. Tile `t` reads rows `10000·t … 10000·t + 9999` of the table and
  the whole bias and matrix, and writes the same rows of the result; the ten tiles cover the result, which therefore ends
  holding the dense step of the WHOLE table as the region finds it, whatever those contents are.
-/
import proofs.«162772_j27023934226652_1_alg».proof.Proof.Gen.KernelIdeal.Frame
import proofs.«162772_j27023934226652_1_alg».proof.Proof.TileRows
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable [Cert.ReferenceIdeal.Facts]
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the ten points: the table's tile moves with the result's, the bias and the matrix stay. -/
theorem idx_facts : ∀ t : Fin cfg1.N, win1_0.index t (0 : Fin 2) = win1_3.index t (0 : Fin 2)
    ∧ win1_0.index t (1 : Fin 2) = 0 ∧ win1_1.index t (0 : Fin 1) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every block of ten thousand rows is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- The table's tile at point `t`: row `p` of the tile is row `i` of the table. -/
theorem read_0 (c : Dev nD) (t : Fin cfg1.N) (p : Fin 10000) (k : Fin 64) (i : Fin 100000)
    (hi : i.val = win1_3.index t (0 : Fin 2) * 10000 + p.val) :
    iblk1 V c 0 t (ix2 p k) = V c main_v43 (ix2 i k) := by
  obtain ⟨e0, e1, e2, e3, e4, e5, e6⟩ := idx_facts t
  show V c main_v43 (((cfg1.win 0).blk t).view.emb (ix2 p k)) = V c main_v43 (ix2 i k)
  refine congrArg _ ?_
  funext a; apply Fin.ext
  match a with
  | ⟨0, _⟩ => show win1_0.index t (0 : Fin 2) * 10000 + 1 * p.val = i.val; omega
  | ⟨1, _⟩ => show win1_0.index t (1 : Fin 2) * 64 + 1 * k.val = k.val; omega

/-- The bias is read whole at every point. -/
theorem read_1 (c : Dev nD) (t : Fin cfg1.N) (k : Fin 64) : iblk1 V c 1 t (ix1 k) = V c main_arg3 (ix1 k) := by
  obtain ⟨e0, e1, e2, e3, e4, e5, e6⟩ := idx_facts t
  show V c main_arg3 (((cfg1.win 1).blk t).view.emb (ix1 k)) = V c main_arg3 (ix1 k)
  refine congrArg _ ?_
  funext a; apply Fin.ext
  match a with
  | ⟨0, _⟩ => show win1_1.index t (0 : Fin 1) * 64 + 1 * k.val = k.val; omega

/-- The matrix is read whole at every point. -/
theorem read_2 (c : Dev nD) (t : Fin cfg1.N) (k : Fin 64) (q : Fin 64) : iblk1 V c 2 t (ix2 k q) = V c main_arg4 (ix2 k q) := by
  obtain ⟨e0, e1, e2, e3, e4, e5, e6⟩ := idx_facts t
  show V c main_arg4 (((cfg1.win 2).blk t).view.emb (ix2 k q)) = V c main_arg4 (ix2 k q)
  refine congrArg _ ?_
  funext a; apply Fin.ext
  match a with
  | ⟨0, _⟩ => show win1_2.index t (0 : Fin 2) * 64 + 1 * k.val = k.val; omega
  | ⟨1, _⟩ => show win1_2.index t (1 : Fin 2) * 64 + 1 * q.val = q.val; omega

/-- What point `t` writes back is block `t` of the dense step of the whole table. -/
theorem flushed_eq (c : Dev nD) (t : Fin cfg1.N) :
    (dat1 V c).flushed 3 t = ((cfg1.win 3).blk t).view.read (Elt Ideal)
      (Cert.GraphNet.lin64 (F := Ideal) (Cert.GraphNet.act64 (F := Ideal) (V c main_v43) (V c main_arg3)) (V c main_arg4)) := by
  show (cfg1.win 3).cut (grid1.coords t) ((dat1 V c).after 3 t) = _
  rw [after1_3]
  unfold out1_3
  rw [View.canon_unit_zero hz2]
  simp only [View.ld_unit_zero (S := S10000x64) hz2, View.ld_unit_zero (S := S64) hz1, View.ld_unit_zero (S := S64x64) hz2]
  obtain ⟨e0, e1, e2, e3, e4, e5, e6⟩ := idx_facts t
  funext j
  obtain ⟨p, q, rfl⟩ : ∃ (p : Fin 10000) (q : Fin 64), j = ix2 p q := ⟨j 0, j 1, eq_ix2 j⟩
  have hp : p.val < 10000 := p.isLt
  refine (Cert.TileRows.tile1_apply (iblk1 V c 0 t) (iblk1 V c 1 t) (iblk1 V c 2 t) p q).trans ?_
  have hE : ((cfg1.win 3).blk t).view.emb (ix2 p q)
      = ix2 (⟨win1_3.index t (0 : Fin 2) * 10000 + p.val, by omega⟩ : Fin 100000) q := by
    funext a; apply Fin.ext
    match a with
    | ⟨0, _⟩ => show win1_3.index t (0 : Fin 2) * 10000 + 1 * p.val = win1_3.index t (0 : Fin 2) * 10000 + p.val; omega
    | ⟨1, _⟩ => show win1_3.index t (1 : Fin 2) * 64 + 1 * q.val = q.val; omega
  show _ = Cert.GraphNet.lin64 (F := Ideal) (Cert.GraphNet.act64 (F := Ideal) (V c main_v43) (V c main_arg3)) (V c main_arg4) (((cfg1.win 3).blk t).view.emb (ix2 p q))
  rw [hE, Cert.TileRows.lin64_act_apply]
  refine Finset.sum_congr rfl fun k _ => ?_
  rw [read_0 V c t p k ⟨win1_3.index t (0 : Fin 2) * 10000 + p.val, by omega⟩ rfl, read_1 V c t k, read_2 V c t k q]

/-- An index of the result is in point `t`'s block iff each coordinate is in the block's range on its axis. -/
theorem mem_blk (c : Dev nD) (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v44).slice (win1_3.rect t)).set ↔ _
  rw [View.set_slice_whole, Rect.mem_set_unit]
  exact Iff.rfl

/-- Row `r` of the result is in the block of point `r / 10000`. -/
theorem cover (c : Dev nD) (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk c]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The result array after the region, from the contents the region is entered with. -/
theorem final (c : Dev nD) : (dat1 V c).arrAt 3 cfg1.N
    = Cert.GraphNet.lin64 (F := Ideal) (Cert.GraphNet.act64 (F := Ideal) (V c main_v43) (V c main_arg3)) (V c main_arg4) :=
  (dat1 V c).arrAt_eq_of_cover 3 _ (fun t _ => flushed_eq V c t) (cover c)

end Cert.KernelIdeal.Region1

end
-- ==== Proof.Region2.lean ====
/-
  Region 2 of the kernel program: a table of 64 columns plus the layer's bias, negatives cut to zero, times the layer's
  matrix of 64 columns, computed in ten tiles of 10000 rows. Tile `t` reads rows `10000·t … 10000·t + 9999` of the table and
  the whole bias and matrix, and writes the same rows of the result; the ten tiles cover the result, which therefore ends
  holding the dense step of the WHOLE table as the region finds it, whatever those contents are.
-/
import proofs.«162772_j27023934226652_1_alg».proof.Proof.Gen.KernelIdeal.Frame
import proofs.«162772_j27023934226652_1_alg».proof.Proof.TileRows
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable [Cert.ReferenceIdeal.Facts]
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the ten points: the table's tile moves with the result's, the bias and the matrix stay. -/
theorem idx_facts : ∀ t : Fin cfg2.N, win2_0.index t (0 : Fin 2) = win2_3.index t (0 : Fin 2)
    ∧ win2_0.index t (1 : Fin 2) = 0 ∧ win2_1.index t (0 : Fin 1) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every block of ten thousand rows is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- The table's tile at point `t`: row `p` of the tile is row `i` of the table. -/
theorem read_0 (c : Dev nD) (t : Fin cfg2.N) (p : Fin 10000) (k : Fin 64) (i : Fin 100000)
    (hi : i.val = win2_3.index t (0 : Fin 2) * 10000 + p.val) :
    iblk2 V c 0 t (ix2 p k) = V c main_v57 (ix2 i k) := by
  obtain ⟨e0, e1, e2, e3, e4, e5, e6⟩ := idx_facts t
  show V c main_v57 (((cfg2.win 0).blk t).view.emb (ix2 p k)) = V c main_v57 (ix2 i k)
  refine congrArg _ ?_
  funext a; apply Fin.ext
  match a with
  | ⟨0, _⟩ => show win2_0.index t (0 : Fin 2) * 10000 + 1 * p.val = i.val; omega
  | ⟨1, _⟩ => show win2_0.index t (1 : Fin 2) * 64 + 1 * k.val = k.val; omega

/-- The bias is read whole at every point. -/
theorem read_1 (c : Dev nD) (t : Fin cfg2.N) (k : Fin 64) : iblk2 V c 1 t (ix1 k) = V c main_arg5 (ix1 k) := by
  obtain ⟨e0, e1, e2, e3, e4, e5, e6⟩ := idx_facts t
  show V c main_arg5 (((cfg2.win 1).blk t).view.emb (ix1 k)) = V c main_arg5 (ix1 k)
  refine congrArg _ ?_
  funext a; apply Fin.ext
  match a with
  | ⟨0, _⟩ => show win2_1.index t (0 : Fin 1) * 64 + 1 * k.val = k.val; omega

/-- The matrix is read whole at every point. -/
theorem read_2 (c : Dev nD) (t : Fin cfg2.N) (k : Fin 64) (q : Fin 64) : iblk2 V c 2 t (ix2 k q) = V c main_arg6 (ix2 k q) := by
  obtain ⟨e0, e1, e2, e3, e4, e5, e6⟩ := idx_facts t
  show V c main_arg6 (((cfg2.win 2).blk t).view.emb (ix2 k q)) = V c main_arg6 (ix2 k q)
  refine congrArg _ ?_
  funext a; apply Fin.ext
  match a with
  | ⟨0, _⟩ => show win2_2.index t (0 : Fin 2) * 64 + 1 * k.val = k.val; omega
  | ⟨1, _⟩ => show win2_2.index t (1 : Fin 2) * 64 + 1 * q.val = q.val; omega

/-- What point `t` writes back is block `t` of the dense step of the whole table. -/
theorem flushed_eq (c : Dev nD) (t : Fin cfg2.N) :
    (dat2 V c).flushed 3 t = ((cfg2.win 3).blk t).view.read (Elt Ideal)
      (Cert.GraphNet.lin64 (F := Ideal) (Cert.GraphNet.act64 (F := Ideal) (V c main_v57) (V c main_arg5)) (V c main_arg6)) := by
  show (cfg2.win 3).cut (grid2.coords t) ((dat2 V c).after 3 t) = _
  rw [after2_3]
  unfold out2_3
  rw [View.canon_unit_zero hz2]
  simp only [View.ld_unit_zero (S := S10000x64) hz2, View.ld_unit_zero (S := S64) hz1, View.ld_unit_zero (S := S64x64) hz2]
  obtain ⟨e0, e1, e2, e3, e4, e5, e6⟩ := idx_facts t
  funext j
  obtain ⟨p, q, rfl⟩ : ∃ (p : Fin 10000) (q : Fin 64), j = ix2 p q := ⟨j 0, j 1, eq_ix2 j⟩
  have hp : p.val < 10000 := p.isLt
  refine (Cert.TileRows.tile2_apply (iblk2 V c 0 t) (iblk2 V c 1 t) (iblk2 V c 2 t) p q).trans ?_
  have hE : ((cfg2.win 3).blk t).view.emb (ix2 p q)
      = ix2 (⟨win2_3.index t (0 : Fin 2) * 10000 + p.val, by omega⟩ : Fin 100000) q := by
    funext a; apply Fin.ext
    match a with
    | ⟨0, _⟩ => show win2_3.index t (0 : Fin 2) * 10000 + 1 * p.val = win2_3.index t (0 : Fin 2) * 10000 + p.val; omega
    | ⟨1, _⟩ => show win2_3.index t (1 : Fin 2) * 64 + 1 * q.val = q.val; omega
  show _ = Cert.GraphNet.lin64 (F := Ideal) (Cert.GraphNet.act64 (F := Ideal) (V c main_v57) (V c main_arg5)) (V c main_arg6) (((cfg2.win 3).blk t).view.emb (ix2 p q))
  rw [hE, Cert.TileRows.lin64_act_apply]
  refine Finset.sum_congr rfl fun k _ => ?_
  rw [read_0 V c t p k ⟨win2_3.index t (0 : Fin 2) * 10000 + p.val, by omega⟩ rfl, read_1 V c t k, read_2 V c t k q]

/-- An index of the result is in point `t`'s block iff each coordinate is in the block's range on its axis. -/
theorem mem_blk (c : Dev nD) (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v58).slice (win2_3.rect t)).set ↔ _
  rw [View.set_slice_whole, Rect.mem_set_unit]
  exact Iff.rfl

/-- Row `r` of the result is in the block of point `r / 10000`. -/
theorem cover (c : Dev nD) (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk c]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The result array after the region, from the contents the region is entered with. -/
theorem final (c : Dev nD) : (dat2 V c).arrAt 3 cfg2.N
    = Cert.GraphNet.lin64 (F := Ideal) (Cert.GraphNet.act64 (F := Ideal) (V c main_v57) (V c main_arg5)) (V c main_arg6) :=
  (dat2 V c).arrAt_eq_of_cover 3 _ (fun t _ => flushed_eq V c t) (cover c)

end Cert.KernelIdeal.Region2

end
-- ==== Proof.Region3.lean ====
/-
  Region 3 of the kernel program: a table of 64 columns plus the layer's bias, negatives cut to zero, times the layer's
  matrix of 32 columns, computed in ten tiles of 10000 rows. Tile `t` reads rows `10000·t … 10000·t + 9999` of the table and
  the whole bias and matrix, and writes the same rows of the result; the ten tiles cover the result, which therefore ends
  holding the dense step of the WHOLE table as the region finds it, whatever those contents are.
-/
import proofs.«162772_j27023934226652_1_alg».proof.Proof.Gen.KernelIdeal.Frame
import proofs.«162772_j27023934226652_1_alg».proof.Proof.TileRows
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable [Cert.ReferenceIdeal.Facts]
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the ten points: the table's tile moves with the result's, the bias and the matrix stay. -/
theorem idx_facts : ∀ t : Fin cfg3.N, win3_0.index t (0 : Fin 2) = win3_3.index t (0 : Fin 2)
    ∧ win3_0.index t (1 : Fin 2) = 0 ∧ win3_1.index t (0 : Fin 1) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every block of ten thousand rows is some point's. -/
theorem idx_onto : ∀ q0 : Fin 10, ∃ t : Fin cfg3.N, win3_3.index t = ![q0.val, 0] :=
  (by decide +kernel : ∀ q0 : Fin 10, ∃ t : Fin grid3.N, win3_3.index t = ![q0.val, 0])

/-- The table's tile at point `t`: row `p` of the tile is row `i` of the table. -/
theorem read_0 (c : Dev nD) (t : Fin cfg3.N) (p : Fin 10000) (k : Fin 64) (i : Fin 100000)
    (hi : i.val = win3_3.index t (0 : Fin 2) * 10000 + p.val) :
    iblk3 V c 0 t (ix2 p k) = V c main_v71 (ix2 i k) := by
  obtain ⟨e0, e1, e2, e3, e4, e5, e6⟩ := idx_facts t
  show V c main_v71 (((cfg3.win 0).blk t).view.emb (ix2 p k)) = V c main_v71 (ix2 i k)
  refine congrArg _ ?_
  funext a; apply Fin.ext
  match a with
  | ⟨0, _⟩ => show win3_0.index t (0 : Fin 2) * 10000 + 1 * p.val = i.val; omega
  | ⟨1, _⟩ => show win3_0.index t (1 : Fin 2) * 64 + 1 * k.val = k.val; omega

/-- The bias is read whole at every point. -/
theorem read_1 (c : Dev nD) (t : Fin cfg3.N) (k : Fin 64) : iblk3 V c 1 t (ix1 k) = V c main_arg7 (ix1 k) := by
  obtain ⟨e0, e1, e2, e3, e4, e5, e6⟩ := idx_facts t
  show V c main_arg7 (((cfg3.win 1).blk t).view.emb (ix1 k)) = V c main_arg7 (ix1 k)
  refine congrArg _ ?_
  funext a; apply Fin.ext
  match a with
  | ⟨0, _⟩ => show win3_1.index t (0 : Fin 1) * 64 + 1 * k.val = k.val; omega

/-- The matrix is read whole at every point. -/
theorem read_2 (c : Dev nD) (t : Fin cfg3.N) (k : Fin 64) (q : Fin 32) : iblk3 V c 2 t (ix2 k q) = V c main_arg8 (ix2 k q) := by
  obtain ⟨e0, e1, e2, e3, e4, e5, e6⟩ := idx_facts t
  show V c main_arg8 (((cfg3.win 2).blk t).view.emb (ix2 k q)) = V c main_arg8 (ix2 k q)
  refine congrArg _ ?_
  funext a; apply Fin.ext
  match a with
  | ⟨0, _⟩ => show win3_2.index t (0 : Fin 2) * 64 + 1 * k.val = k.val; omega
  | ⟨1, _⟩ => show win3_2.index t (1 : Fin 2) * 32 + 1 * q.val = q.val; omega

/-- What point `t` writes back is block `t` of the dense step of the whole table. -/
theorem flushed_eq (c : Dev nD) (t : Fin cfg3.N) :
    (dat3 V c).flushed 3 t = ((cfg3.win 3).blk t).view.read (Elt Ideal)
      (Cert.GraphNet.lin32 (F := Ideal) (Cert.GraphNet.act64 (F := Ideal) (V c main_v71) (V c main_arg7)) (V c main_arg8)) := by
  show (cfg3.win 3).cut (grid3.coords t) ((dat3 V c).after 3 t) = _
  rw [after3_3]
  unfold out3_3
  rw [View.canon_unit_zero hz2]
  simp only [View.ld_unit_zero (S := S10000x64) hz2, View.ld_unit_zero (S := S64) hz1, View.ld_unit_zero (S := S64x32) hz2]
  obtain ⟨e0, e1, e2, e3, e4, e5, e6⟩ := idx_facts t
  funext j
  obtain ⟨p, q, rfl⟩ : ∃ (p : Fin 10000) (q : Fin 32), j = ix2 p q := ⟨j 0, j 1, eq_ix2 j⟩
  have hp : p.val < 10000 := p.isLt
  refine (Cert.TileRows.tile3_apply (iblk3 V c 0 t) (iblk3 V c 1 t) (iblk3 V c 2 t) p q).trans ?_
  have hE : ((cfg3.win 3).blk t).view.emb (ix2 p q)
      = ix2 (⟨win3_3.index t (0 : Fin 2) * 10000 + p.val, by omega⟩ : Fin 100000) q := by
    funext a; apply Fin.ext
    match a with
    | ⟨0, _⟩ => show win3_3.index t (0 : Fin 2) * 10000 + 1 * p.val = win3_3.index t (0 : Fin 2) * 10000 + p.val; omega
    | ⟨1, _⟩ => show win3_3.index t (1 : Fin 2) * 32 + 1 * q.val = q.val; omega
  show _ = Cert.GraphNet.lin32 (F := Ideal) (Cert.GraphNet.act64 (F := Ideal) (V c main_v71) (V c main_arg7)) (V c main_arg8) (((cfg3.win 3).blk t).view.emb (ix2 p q))
  rw [hE, Cert.TileRows.lin32_act_apply]
  refine Finset.sum_congr rfl fun k _ => ?_
  rw [read_0 V c t p k ⟨win3_3.index t (0 : Fin 2) * 10000 + p.val, by omega⟩ rfl, read_1 V c t k, read_2 V c t k q]

/-- An index of the result is in point `t`'s block iff each coordinate is in the block's range on its axis. -/
theorem mem_blk (c : Dev nD) (t : Fin cfg3.N) (i : S100000x32.Idx) :
    i ∈ ((cfg3.win 3).blk t).view.set ↔ ∀ a : Fin 2, win3_3.index t a * S10000x32.size a ≤ (i a).val ∧ (i a).val < win3_3.index t a * S10000x32.size a + S10000x32.size a := by
  show i ∈ ((View.whole main_v72).slice (win3_3.rect t)).set ↔ _
  rw [View.set_slice_whole, Rect.mem_set_unit]
  exact Iff.rfl

/-- Row `r` of the result is in the block of point `r / 10000`. -/
theorem cover (c : Dev nD) (i : S100000x32.Idx) : ∃ t : Fin cfg3.N, (cfg3.win 3).flush t = true ∧ i ∈ ((cfg3.win 3).blk t).view.set := by
  have hi0 : (i 0).val < 100000 := (i 0).isLt
  have hi1 : (i 1).val < 32 := (i 1).isLt
  obtain ⟨t, ht⟩ := idx_onto ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_blk c]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 32 ≤ (i 1).val ∧ (i 1).val < win3_3.index t (1 : Fin 2) * 32 + 32; omega

/-- The result array after the region, from the contents the region is entered with. -/
theorem final (c : Dev nD) : (dat3 V c).arrAt 3 cfg3.N
    = Cert.GraphNet.lin32 (F := Ideal) (Cert.GraphNet.act64 (F := Ideal) (V c main_v71) (V c main_arg7)) (V c main_arg8) :=
  (dat3 V c).arrAt_eq_of_cover 3 _ (fun t _ => flushed_eq V c t) (cover c)

end Cert.KernelIdeal.Region3

end
-- ==== Proof.Region4.lean ====
/-
  Region 4 of the kernel program: the last layer's bias of 32 entries added along every row of a table of 32 columns, in ten
  tiles of 10000 rows. Tile `t` reads rows `10000·t … 10000·t + 9999` of the table and the whole bias, and writes the same
  rows of the result; the ten tiles cover the result, which ends holding the whole table plus the bias along every row.
-/
import proofs.«162772_j27023934226652_1_alg».proof.Proof.Gen.KernelIdeal.Frame
import proofs.«162772_j27023934226652_1_alg».proof.Proof.TileRows
import Idealize.ShloMosaic.Lib.Pipeline.Value

set_option maxRecDepth 16384

noncomputable section

namespace Cert.KernelIdeal.Region4

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable [Cert.ReferenceIdeal.Facts]
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the ten points: the table's tile moves with the result's, the bias stays. -/
theorem idx_facts : ∀ t : Fin cfg4.N, win4_0.index t (0 : Fin 2) = win4_2.index t (0 : Fin 2)
    ∧ win4_0.index t (1 : Fin 2) = 0 ∧ win4_1.index t (0 : Fin 1) = 0
    ∧ win4_2.index t (1 : Fin 2) = 0 ∧ win4_2.index t (0 : Fin 2) ≤ 9 :=
  (by decide +kernel : ∀ t : Fin grid4.N, _)

/-- Every block of ten thousand rows is some point's. -/
theorem idx_onto : ∀ q0 : Fin 10, ∃ t : Fin cfg4.N, win4_2.index t = ![q0.val, 0] :=
  (by decide +kernel : ∀ q0 : Fin 10, ∃ t : Fin grid4.N, win4_2.index t = ![q0.val, 0])

/-- The table's tile at point `t`: row `p` of the tile is row `i` of the table. -/
theorem read_0 (c : Dev nD) (t : Fin cfg4.N) (p : Fin 10000) (q : Fin 32) (i : Fin 100000)
    (hi : i.val = win4_2.index t (0 : Fin 2) * 10000 + p.val) :
    iblk4 V c 0 t (ix2 p q) = V c main_v85 (ix2 i q) := by
  obtain ⟨e0, e1, e2, e3, e4⟩ := idx_facts t
  show V c main_v85 (((cfg4.win 0).blk t).view.emb (ix2 p q)) = V c main_v85 (ix2 i q)
  refine congrArg _ ?_
  funext a; apply Fin.ext
  match a with
  | ⟨0, _⟩ => show win4_0.index t (0 : Fin 2) * 10000 + 1 * p.val = i.val; omega
  | ⟨1, _⟩ => show win4_0.index t (1 : Fin 2) * 32 + 1 * q.val = q.val; omega

/-- The bias is read whole at every point. -/
theorem read_1 (c : Dev nD) (t : Fin cfg4.N) (q : Fin 32) : iblk4 V c 1 t (ix1 q) = V c main_arg9 (ix1 q) := by
  obtain ⟨e0, e1, e2, e3, e4⟩ := idx_facts t
  show V c main_arg9 (((cfg4.win 1).blk t).view.emb (ix1 q)) = V c main_arg9 (ix1 q)
  refine congrArg _ ?_
  funext a; apply Fin.ext
  match a with
  | ⟨0, _⟩ => show win4_1.index t (0 : Fin 1) * 32 + 1 * q.val = q.val; omega

/-- What point `t` writes back is block `t` of the whole table plus the bias along every row. -/
theorem flushed_eq (c : Dev nD) (t : Fin cfg4.N) :
    (dat4 V c).flushed 2 t = ((cfg4.win 2).blk t).view.read (Elt Ideal)
      (Cert.GraphNet.addBias32 (F := Ideal) (V c main_v85) (V c main_arg9)) := by
  show (cfg4.win 2).cut (grid4.coords t) ((dat4 V c).after 2 t) = _
  rw [after4_2]
  unfold out4_2
  rw [View.canon_unit_zero hz2]
  simp only [View.ld_unit_zero (S := S10000x32) hz2, View.ld_unit_zero (S := S32) hz1]
  obtain ⟨e0, e1, e2, e3, e4⟩ := idx_facts t
  funext j
  obtain ⟨p, q, rfl⟩ : ∃ (p : Fin 10000) (q : Fin 32), j = ix2 p q := ⟨j 0, j 1, eq_ix2 j⟩
  have hp : p.val < 10000 := p.isLt
  refine (Cert.TileRows.tile4_apply (iblk4 V c 0 t) (iblk4 V c 1 t) p q).trans ?_
  have hE : ((cfg4.win 2).blk t).view.emb (ix2 p q)
      = ix2 (⟨win4_2.index t (0 : Fin 2) * 10000 + p.val, by omega⟩ : Fin 100000) q := by
    funext a; apply Fin.ext
    match a with
    | ⟨0, _⟩ => show win4_2.index t (0 : Fin 2) * 10000 + 1 * p.val = win4_2.index t (0 : Fin 2) * 10000 + p.val; omega
    | ⟨1, _⟩ => show win4_2.index t (1 : Fin 2) * 32 + 1 * q.val = q.val; omega
  show _ = Cert.GraphNet.addBias32 (F := Ideal) (V c main_v85) (V c main_arg9) (((cfg4.win 2).blk t).view.emb (ix2 p q))
  rw [hE, Cert.TileRows.addBias32_apply]
  rw [read_0 V c t p q ⟨win4_2.index t (0 : Fin 2) * 10000 + p.val, by omega⟩ rfl, read_1 V c t q]

/-- An index of the result is in point `t`'s block iff each coordinate is in the block's range on its axis. -/
theorem mem_blk (c : Dev nD) (t : Fin cfg4.N) (i : S100000x32.Idx) :
    i ∈ ((cfg4.win 2).blk t).view.set ↔ ∀ a : Fin 2, win4_2.index t a * S10000x32.size a ≤ (i a).val ∧ (i a).val < win4_2.index t a * S10000x32.size a + S10000x32.size a := by
  show i ∈ ((View.whole main_v86).slice (win4_2.rect t)).set ↔ _
  rw [View.set_slice_whole, Rect.mem_set_unit]
  exact Iff.rfl

/-- Row `r` of the result is in the block of point `r / 10000`. -/
theorem cover (c : Dev nD) (i : S100000x32.Idx) : ∃ t : Fin cfg4.N, (cfg4.win 2).flush t = true ∧ i ∈ ((cfg4.win 2).blk t).view.set := by
  have hi0 : (i 0).val < 100000 := (i 0).isLt
  have hi1 : (i 1).val < 32 := (i 1).isLt
  obtain ⟨t, ht⟩ := idx_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk c]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 32 ≤ (i 1).val ∧ (i 1).val < win4_2.index t (1 : Fin 2) * 32 + 32; omega

/-- The result array after the region, from the contents the region is entered with. -/
theorem final (c : Dev nD) : (dat4 V c).arrAt 2 cfg4.N = Cert.GraphNet.addBias32 (F := Ideal) (V c main_v85) (V c main_arg9) :=
  (dat4 V c).arrAt_eq_of_cover 2 _ (fun t _ => flushed_eq V c t) (cover c)

end Cert.KernelIdeal.Region4

end
-- ==== Proof.KernelChain.lean ====
/-
  The kernel program's result, followed through the boundary contents `W0 … W12` from the launch memory to the end.

  The first three stretches of host operations leave the source numbers, the destination numbers and the weights in their
  buffers, as functions of the edge list alone; no later segment writes those buffers, nor any argument array, so each is
  read at a later boundary as it was left (the `kept_…` equations: across a stretch because none of its operations writes
  the buffer, across a region because the buffer is none of the region's arrays). Region 0 leaves the first dense product
  of the node table; each later stretch is one aggregation step of the table the region before it left, and each later
  region is the next dense step of what the stretch left (bias, cut, matrix; the last only the bias). Composed, the result
  buffer ends holding the network of the ten argument arrays' launch contents.
-/
import proofs.«162772_j27023934226652_1_alg».proof.Proof.Gen.KernelIdeal.Frame
import proofs.«162772_j27023934226652_1_alg».proof.Proof.Gen.ReferenceIdeal
import proofs.«162772_j27023934226652_1_alg».proof.Proof.GraphNet
import proofs.«162772_j27023934226652_1_alg».proof.Proof.Region0
import proofs.«162772_j27023934226652_1_alg».proof.Proof.Region1
import proofs.«162772_j27023934226652_1_alg».proof.Proof.Region2
import proofs.«162772_j27023934226652_1_alg».proof.Proof.Region3
import proofs.«162772_j27023934226652_1_alg».proof.Proof.Region4
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe
open Idealize.SL Idealize.SL.Sem

/-! ## The stretches of host operations, from any entry contents -/

/-- The first stretch leaves the source numbers: row 0 of the edge list, then every node's own number. -/
theorem first_srcs (W : Valuation τ sig (Elt Ideal)) :
    StableHlo.after hostOps0 W (Proc.devRef .tc main_v3) = Cert.GraphNet.srcs (W (Proc.devRef .tc main_arg1)) := by
  dsimp only [hostOps0]
  after_results_simp <;> rfl

/-- … the destination numbers: row 1 of the edge list, then every node's own number. -/
theorem first_dsts (W : Valuation τ sig (Elt Ideal)) :
    StableHlo.after hostOps0 W (Proc.devRef .tc main_v6) = Cert.GraphNet.dsts (W (Proc.devRef .tc main_arg1)) := by
  dsimp only [hostOps0]
  after_results_simp <;> rfl

/-- … which nodes have a positive degree … -/
theorem first_pos (W : Valuation τ sig (Elt Ideal)) :
    StableHlo.after hostOps0 W (Proc.devRef .tc main_v12)
      = cmpf (F := Ideal) .ogt (Cert.GraphNet.deg (F := Ideal) (W (Proc.devRef .tc main_arg1))) (broadcastInDim S100000 ![] bcast_S_S100000 (constant S_ .f32 0x00000000#32)) := by
  dsimp only [hostOps0]
  after_results_simp <;> rfl

/-- … the inverse square roots of the degrees … -/
theorem first_rsqrt (W : Valuation τ sig (Elt Ideal)) :
    StableHlo.after hostOps0 W (Proc.devRef .tc main_v13) = Host.rsqrt (Cert.GraphNet.deg (F := Ideal) (W (Proc.devRef .tc main_arg1))) := by
  dsimp only [hostOps0]
  after_results_simp <;> rfl

/-- … and a zero. -/
theorem first_zero (W : Valuation τ sig (Elt Ideal)) :
    StableHlo.after hostOps0 W (Proc.devRef .tc main_cst_2) = constant (F := Ideal) S_ .f32 0x00000000#32 := by
  dsimp only [hostOps0]
  after_results_simp <;> rfl

/-- The second stretch selects a node's factor: the inverse root where the degree is positive, the zero elsewhere. -/
theorem second (W : Valuation τ sig (Elt Ideal)) :
    StableHlo.after hostOps0_1 W (Proc.devRef .tc main_v14)
      = select (W (Proc.devRef .tc main_v12)) (W (Proc.devRef .tc main_v13)) (broadcastInDim S100000 ![] bcast_S_S100000 (id (W (Proc.devRef .tc main_cst_2)))) := by
  dsimp only [hostOps0_1]
  after_results_simp <;> rfl

/-- The third stretch multiplies the factors gathered at an entry's source and at its destination. -/
theorem third (W : Valuation τ sig (Elt Ideal)) :
    StableHlo.after hostOps0_2 W (Proc.devRef .tc main_v29)
      = mulf (F := Ideal) (φ := .f32) (Host.gather gather_S100000_S1700000x1_S1700000_n_0_n_n_0_1_1 (W (Proc.devRef .tc main_v14)) (broadcastInDim S1700000x1 ![0] bcast_S1700000_S1700000x1_0 (Cert.GraphNet.wrap (W (Proc.devRef .tc main_v3)))))
          (Host.gather gather_S100000_S1700000x1_S1700000_n_0_n_n_0_1_1 (W (Proc.devRef .tc main_v14)) (broadcastInDim S1700000x1 ![0] bcast_S1700000_S1700000x1_0 (Cert.GraphNet.wrap (W (Proc.devRef .tc main_v6))))) := by
  dsimp only [hostOps0_2]
  after_results_simp <;> rfl

/-- The stretch before region 1: one aggregation step of the table in `main_v30`, with the source numbers, destination numbers
    and weights the first stretches left in their buffers. -/
theorem stretch1 (W : Valuation τ sig (Elt Ideal)) :
    StableHlo.after hostOps1 W (Proc.devRef .tc main_v43)
      = Cert.GraphNet.aggWith64 (F := Ideal) (W (Proc.devRef .tc main_v3)) (W (Proc.devRef .tc main_v6)) (W (Proc.devRef .tc main_v29)) (W (Proc.devRef .tc main_v30)) := by
  dsimp only [hostOps1]
  after_results_simp <;> rfl

/-- The stretch before region 2: one aggregation step of the table in `main_v44`, with the source numbers, destination numbers
    and weights the first stretches left in their buffers. -/
theorem stretch2 (W : Valuation τ sig (Elt Ideal)) :
    StableHlo.after hostOps2 W (Proc.devRef .tc main_v57)
      = Cert.GraphNet.aggWith64 (F := Ideal) (W (Proc.devRef .tc main_v3)) (W (Proc.devRef .tc main_v6)) (W (Proc.devRef .tc main_v29)) (W (Proc.devRef .tc main_v44)) := by
  dsimp only [hostOps2]
  after_results_simp <;> rfl

/-- The stretch before region 3: one aggregation step of the table in `main_v58`, with the source numbers, destination numbers
    and weights the first stretches left in their buffers. -/
theorem stretch3 (W : Valuation τ sig (Elt Ideal)) :
    StableHlo.after hostOps3 W (Proc.devRef .tc main_v71)
      = Cert.GraphNet.aggWith64 (F := Ideal) (W (Proc.devRef .tc main_v3)) (W (Proc.devRef .tc main_v6)) (W (Proc.devRef .tc main_v29)) (W (Proc.devRef .tc main_v58)) := by
  dsimp only [hostOps3]
  after_results_simp <;> rfl

/-- The stretch before region 4: one aggregation step of the table in `main_v72`, with the source numbers, destination numbers
    and weights the first stretches left in their buffers. -/
theorem stretch4 (W : Valuation τ sig (Elt Ideal)) :
    StableHlo.after hostOps4 W (Proc.devRef .tc main_v85)
      = Cert.GraphNet.aggWith32 (F := Ideal) (W (Proc.devRef .tc main_v3)) (W (Proc.devRef .tc main_v6)) (W (Proc.devRef .tc main_v29)) (W (Proc.devRef .tc main_v72)) := by
  dsimp only [hostOps4]
  after_results_simp <;> rfl

variable (m : (ℓ : Loc nD τ sig) → Buf (Elt Ideal) ℓ) (ρ : Dev nD → PrngReg)

/-! ## Buffers no later segment writes -/

theorem kept_main_arg0_3_0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem kept_main_arg2_3_0 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem kept_main_arg3_5_0 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem kept_main_arg4_5_0 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem kept_main_arg5_7_0 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem kept_main_arg6_7_0 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem kept_main_arg7_9_0 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_forall_not_mem (b := Proc.devRef .tc main_arg7) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem kept_main_arg8_9_0 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_forall_not_mem (b := Proc.devRef .tc main_arg8) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem kept_main_arg9_11_0 (c : Dev nD) : W11 m ρ c (Proc.devRef .tc main_arg9) = m ((c : Thread nD τ).loc main_arg9) :=
  calc W11 m ρ c (Proc.devRef .tc main_arg9)
    _ = W10 m ρ c (Proc.devRef .tc main_arg9) := StableHlo.after_of_forall_not_mem (b := Proc.devRef .tc main_arg9) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem kept_main_v3_4_3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem kept_main_v3_6_3 (c : Dev nD) : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

theorem kept_main_v3_8_3 (c : Dev nD) : W8 m ρ c (Proc.devRef .tc main_v3) = W3 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

theorem kept_main_v3_10_3 (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

theorem kept_main_v6_4_3 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem kept_main_v6_6_3 (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem kept_main_v6_8_3 (c : Dev nD) : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem kept_main_v6_10_3 (c : Dev nD) : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := StableHlo.after_of_forall_not_mem (b := Proc.devRef .tc main_v6) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem kept_main_v29_4_3 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem kept_main_v29_6_3 (c : Dev nD) : W6 m ρ c (Proc.devRef .tc main_v29) = W3 m ρ c (Proc.devRef .tc main_v29) :=
  calc W6 m ρ c (Proc.devRef .tc main_v29)
    _ = W5 m ρ c (Proc.devRef .tc main_v29) := W6_of_ne m ρ c main_v29 (by decide)
    _ = W4 m ρ c (Proc.devRef .tc main_v29) := StableHlo.after_of_forall_not_mem (b := Proc.devRef .tc main_v29) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := W4_of_ne m ρ c main_v29 (by decide)

theorem kept_main_v29_8_3 (c : Dev nD) : W8 m ρ c (Proc.devRef .tc main_v29) = W3 m ρ c (Proc.devRef .tc main_v29) :=
  calc W8 m ρ c (Proc.devRef .tc main_v29)
    _ = W7 m ρ c (Proc.devRef .tc main_v29) := W8_of_ne m ρ c main_v29 (by decide)
    _ = W6 m ρ c (Proc.devRef .tc main_v29) := StableHlo.after_of_forall_not_mem (b := Proc.devRef .tc main_v29) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v29) := W6_of_ne m ρ c main_v29 (by decide)
    _ = W4 m ρ c (Proc.devRef .tc main_v29) := StableHlo.after_of_forall_not_mem (b := Proc.devRef .tc main_v29) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := W4_of_ne m ρ c main_v29 (by decide)

theorem kept_main_v29_10_3 (c : Dev nD) : W10 m ρ c (Proc.devRef .tc main_v29) = W3 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := StableHlo.after_of_forall_not_mem (b := Proc.devRef .tc main_v29) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v29) := W8_of_ne m ρ c main_v29 (by decide)
    _ = W6 m ρ c (Proc.devRef .tc main_v29) := StableHlo.after_of_forall_not_mem (b := Proc.devRef .tc main_v29) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v29) := W6_of_ne m ρ c main_v29 (by decide)
    _ = W4 m ρ c (Proc.devRef .tc main_v29) := StableHlo.after_of_forall_not_mem (b := Proc.devRef .tc main_v29) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := W4_of_ne m ρ c main_v29 (by decide)

theorem kept_main_v3_3_1 (c : Dev nD) : W3 m ρ c (Proc.devRef .tc main_v3) = W1 m ρ c (Proc.devRef .tc main_v3) :=
  calc W3 m ρ c (Proc.devRef .tc main_v3)
    _ = W2 m ρ c (Proc.devRef .tc main_v3) := StableHlo.after_of_forall_not_mem (b := Proc.devRef .tc main_v3) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_main_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := StableHlo.after_of_forall_not_mem (b := Proc.devRef .tc main_v3) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_main_v6_3_1 (c : Dev nD) : W3 m ρ c (Proc.devRef .tc main_v6) = W1 m ρ c (Proc.devRef .tc main_v6) :=
  calc W3 m ρ c (Proc.devRef .tc main_v6)
    _ = W2 m ρ c (Proc.devRef .tc main_v6) := StableHlo.after_of_forall_not_mem (b := Proc.devRef .tc main_v6) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_main_v6_2_1 (c : Dev nD) : W2 m ρ c (Proc.devRef .tc main_v6) = W1 m ρ c (Proc.devRef .tc main_v6) :=
  calc W2 m ρ c (Proc.devRef .tc main_v6)
    _ = W1 m ρ c (Proc.devRef .tc main_v6) := StableHlo.after_of_forall_not_mem (b := Proc.devRef .tc main_v6) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## The boundary contents, one buffer at a time -/

theorem srcs_at3 (c : Dev nD) : W3 m ρ c (Proc.devRef .tc main_v3) = Cert.GraphNet.srcs (m ((c : Thread nD τ).loc main_arg1)) :=
  (kept_main_v3_3_1 m ρ c).trans (first_srcs (W0 m ρ c))
theorem dsts_at3 (c : Dev nD) : W3 m ρ c (Proc.devRef .tc main_v6) = Cert.GraphNet.dsts (m ((c : Thread nD τ).loc main_arg1)) :=
  (kept_main_v6_3_1 m ρ c).trans (first_dsts (W0 m ρ c))
theorem factor_at2 (c : Dev nD) : W2 m ρ c (Proc.devRef .tc main_v14) = Cert.GraphNet.dinv (F := Ideal) (m ((c : Thread nD τ).loc main_arg1)) := by
  refine (second (W1 m ρ c)).trans ?_
  rw [show W1 m ρ c (Proc.devRef .tc main_v12) = _ from first_pos (W0 m ρ c), show W1 m ρ c (Proc.devRef .tc main_v13) = _ from first_rsqrt (W0 m ρ c),
    show W1 m ρ c (Proc.devRef .tc main_cst_2) = _ from first_zero (W0 m ρ c)]
  rfl
theorem weight_at3 (c : Dev nD) : W3 m ρ c (Proc.devRef .tc main_v29) = Cert.GraphNet.weight (F := Ideal) (m ((c : Thread nD τ).loc main_arg1)) := by
  refine (third (W2 m ρ c)).trans ?_
  rw [factor_at2 m ρ c, kept_main_v3_2_1 m ρ c, kept_main_v6_2_1 m ρ c,
    show W1 m ρ c (Proc.devRef .tc main_v3) = _ from first_srcs (W0 m ρ c), show W1 m ρ c (Proc.devRef .tc main_v6) = _ from first_dsts (W0 m ρ c)]
  rfl

theorem val_main_v30 (c : Dev nD) : W4 m ρ c (Proc.devRef .tc main_v30) = (Cert.GraphNet.lin128 (F := Ideal) (m ((c : Thread nD τ).loc main_arg0)) (m ((c : Thread nD τ).loc main_arg2))) := by
  refine (W4_arr m ρ c 2).trans ((Cert.KernelIdeal.Region0.final (V3 m ρ) c).trans ?_)
  show Cert.GraphNet.lin128 (F := Ideal) (W3 m ρ c (Proc.devRef .tc main_arg0)) (W3 m ρ c (Proc.devRef .tc main_arg2)) = _
  rw [kept_main_arg0_3_0 m ρ c, kept_main_arg2_3_0 m ρ c]

theorem val_main_v43 (c : Dev nD) : W5 m ρ c (Proc.devRef .tc main_v43) = (Cert.GraphNet.agg64 (F := Ideal) (m ((c : Thread nD τ).loc main_arg1)) (Cert.GraphNet.lin128 (F := Ideal) (m ((c : Thread nD τ).loc main_arg0)) (m ((c : Thread nD τ).loc main_arg2)))) := by
  refine (stretch1 (W4 m ρ c)).trans ?_
  rw [val_main_v30 m ρ c, kept_main_v3_4_3 m ρ c, kept_main_v6_4_3 m ρ c, kept_main_v29_4_3 m ρ c, srcs_at3 m ρ c, dsts_at3 m ρ c, weight_at3 m ρ c]
  rfl

theorem val_main_v44 (c : Dev nD) : W6 m ρ c (Proc.devRef .tc main_v44) = (Cert.GraphNet.lin64 (F := Ideal) (Cert.GraphNet.act64 (F := Ideal) (Cert.GraphNet.agg64 (F := Ideal) (m ((c : Thread nD τ).loc main_arg1)) (Cert.GraphNet.lin128 (F := Ideal) (m ((c : Thread nD τ).loc main_arg0)) (m ((c : Thread nD τ).loc main_arg2)))) (m ((c : Thread nD τ).loc main_arg3))) (m ((c : Thread nD τ).loc main_arg4))) := by
  refine (W6_arr m ρ c 3).trans ((Cert.KernelIdeal.Region1.final (V5 m ρ) c).trans ?_)
  show Cert.GraphNet.lin64 (F := Ideal) (Cert.GraphNet.act64 (F := Ideal) (W5 m ρ c (Proc.devRef .tc main_v43)) (W5 m ρ c (Proc.devRef .tc main_arg3))) (W5 m ρ c (Proc.devRef .tc main_arg4)) = _
  rw [val_main_v43 m ρ c, kept_main_arg3_5_0 m ρ c, kept_main_arg4_5_0 m ρ c]

theorem val_main_v57 (c : Dev nD) : W7 m ρ c (Proc.devRef .tc main_v57) = (Cert.GraphNet.agg64 (F := Ideal) (m ((c : Thread nD τ).loc main_arg1)) (Cert.GraphNet.lin64 (F := Ideal) (Cert.GraphNet.act64 (F := Ideal) (Cert.GraphNet.agg64 (F := Ideal) (m ((c : Thread nD τ).loc main_arg1)) (Cert.GraphNet.lin128 (F := Ideal) (m ((c : Thread nD τ).loc main_arg0)) (m ((c : Thread nD τ).loc main_arg2)))) (m ((c : Thread nD τ).loc main_arg3))) (m ((c : Thread nD τ).loc main_arg4)))) := by
  refine (stretch2 (W6 m ρ c)).trans ?_
  rw [val_main_v44 m ρ c, kept_main_v3_6_3 m ρ c, kept_main_v6_6_3 m ρ c, kept_main_v29_6_3 m ρ c, srcs_at3 m ρ c, dsts_at3 m ρ c, weight_at3 m ρ c]
  rfl

theorem val_main_v58 (c : Dev nD) : W8 m ρ c (Proc.devRef .tc main_v58) = (Cert.GraphNet.lin64 (F := Ideal) (Cert.GraphNet.act64 (F := Ideal) (Cert.GraphNet.agg64 (F := Ideal) (m ((c : Thread nD τ).loc main_arg1)) (Cert.GraphNet.lin64 (F := Ideal) (Cert.GraphNet.act64 (F := Ideal) (Cert.GraphNet.agg64 (F := Ideal) (m ((c : Thread nD τ).loc main_arg1)) (Cert.GraphNet.lin128 (F := Ideal) (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6))) := by
  refine (W8_arr m ρ c 3).trans ((Cert.KernelIdeal.Region2.final (V7 m ρ) c).trans ?_)
  show Cert.GraphNet.lin64 (F := Ideal) (Cert.GraphNet.act64 (F := Ideal) (W7 m ρ c (Proc.devRef .tc main_v57)) (W7 m ρ c (Proc.devRef .tc main_arg5))) (W7 m ρ c (Proc.devRef .tc main_arg6)) = _
  rw [val_main_v57 m ρ c, kept_main_arg5_7_0 m ρ c, kept_main_arg6_7_0 m ρ c]

theorem val_main_v71 (c : Dev nD) : W9 m ρ c (Proc.devRef .tc main_v71) = (Cert.GraphNet.agg64 (F := Ideal) (m ((c : Thread nD τ).loc main_arg1)) (Cert.GraphNet.lin64 (F := Ideal) (Cert.GraphNet.act64 (F := Ideal) (Cert.GraphNet.agg64 (F := Ideal) (m ((c : Thread nD τ).loc main_arg1)) (Cert.GraphNet.lin64 (F := Ideal) (Cert.GraphNet.act64 (F := Ideal) (Cert.GraphNet.agg64 (F := Ideal) (m ((c : Thread nD τ).loc main_arg1)) (Cert.GraphNet.lin128 (F := Ideal) (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6)))) := by
  refine (stretch3 (W8 m ρ c)).trans ?_
  rw [val_main_v58 m ρ c, kept_main_v3_8_3 m ρ c, kept_main_v6_8_3 m ρ c, kept_main_v29_8_3 m ρ c, srcs_at3 m ρ c, dsts_at3 m ρ c, weight_at3 m ρ c]
  rfl

theorem val_main_v72 (c : Dev nD) : W10 m ρ c (Proc.devRef .tc main_v72) = (Cert.GraphNet.lin32 (F := Ideal) (Cert.GraphNet.act64 (F := Ideal) (Cert.GraphNet.agg64 (F := Ideal) (m ((c : Thread nD τ).loc main_arg1)) (Cert.GraphNet.lin64 (F := Ideal) (Cert.GraphNet.act64 (F := Ideal) (Cert.GraphNet.agg64 (F := Ideal) (m ((c : Thread nD τ).loc main_arg1)) (Cert.GraphNet.lin64 (F := Ideal) (Cert.GraphNet.act64 (F := Ideal) (Cert.GraphNet.agg64 (F := Ideal) (m ((c : Thread nD τ).loc main_arg1)) (Cert.GraphNet.lin128 (F := Ideal) (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6)))) (m ((c : Thread nD τ).loc main_arg7))) (m ((c : Thread nD τ).loc main_arg8))) := by
  refine (W10_arr m ρ c 3).trans ((Cert.KernelIdeal.Region3.final (V9 m ρ) c).trans ?_)
  show Cert.GraphNet.lin32 (F := Ideal) (Cert.GraphNet.act64 (F := Ideal) (W9 m ρ c (Proc.devRef .tc main_v71)) (W9 m ρ c (Proc.devRef .tc main_arg7))) (W9 m ρ c (Proc.devRef .tc main_arg8)) = _
  rw [val_main_v71 m ρ c, kept_main_arg7_9_0 m ρ c, kept_main_arg8_9_0 m ρ c]

theorem val_main_v85 (c : Dev nD) : W11 m ρ c (Proc.devRef .tc main_v85) = (Cert.GraphNet.agg32 (F := Ideal) (m ((c : Thread nD τ).loc main_arg1)) (Cert.GraphNet.lin32 (F := Ideal) (Cert.GraphNet.act64 (F := Ideal) (Cert.GraphNet.agg64 (F := Ideal) (m ((c : Thread nD τ).loc main_arg1)) (Cert.GraphNet.lin64 (F := Ideal) (Cert.GraphNet.act64 (F := Ideal) (Cert.GraphNet.agg64 (F := Ideal) (m ((c : Thread nD τ).loc main_arg1)) (Cert.GraphNet.lin64 (F := Ideal) (Cert.GraphNet.act64 (F := Ideal) (Cert.GraphNet.agg64 (F := Ideal) (m ((c : Thread nD τ).loc main_arg1)) (Cert.GraphNet.lin128 (F := Ideal) (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6)))) (m ((c : Thread nD τ).loc main_arg7))) (m ((c : Thread nD τ).loc main_arg8)))) := by
  refine (stretch4 (W10 m ρ c)).trans ?_
  rw [val_main_v72 m ρ c, kept_main_v3_10_3 m ρ c, kept_main_v6_10_3 m ρ c, kept_main_v29_10_3 m ρ c, srcs_at3 m ρ c, dsts_at3 m ρ c, weight_at3 m ρ c]
  rfl

/-- The result buffer at the end of the run: the network of the launch contents. -/
theorem result (c : Dev nD) : W12 m ρ c (Proc.devRef .tc main_v86)
    = Cert.GraphNet.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 2).trans ((Cert.KernelIdeal.Region4.final (V11 m ρ) c).trans ?_)
  show Cert.GraphNet.addBias32 (F := Ideal) (W11 m ρ c (Proc.devRef .tc main_v85)) (W11 m ρ c (Proc.devRef .tc main_arg9)) = _
  rw [val_main_v85 m ρ c, kept_main_arg9_11_0 m ρ c]
  rfl

end Cert.KernelIdeal.Chain

end
-- ==== Proof.RefIsNet.lean ====
/-
  The reference program computes the network: its run ends with the result buffer at the operations' composed term of the
  launch contents, and that term is `Cert.GraphNet.net` of the ten argument arrays — the same operations in the same order,
  with the source numbers, destination numbers, weights and each aggregation step given their names.
-/
import proofs.«162772_j27023934226652_1_alg».proof.Proof.RefRun
import proofs.«162772_j27023934226652_1_alg».proof.Proof.GraphNet

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 16384 in
set_option maxHeartbeats 4000000 in
/-- The composed term of the reference's 129 operations is the network of the launch contents. -/
theorem res_eq_net (m : (ℓ : Loc nD τ sig) → Buf (Elt F) ℓ) (c : Dev nD) :
    Cert.ReferenceIdeal.ValueP.res_main_v100 m c
      = Cert.GraphNet.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.ValueP.res_main_v100
  rfl

/-- The reference's run with its result named as the network of the launch contents. -/
theorem run_net (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v100)
        = Cert.GraphNet.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (res_eq_net m c), (h c).2⟩)
    (Cert.ReferenceIdeal.ValueP.run (F := F) m ρ)

end Cert.ReferenceIdeal.RefValue

end
-- ==== Proof.lean ====
/-
  A four-layer graph convolution over 100000 nodes and 1600000 edges (with every node's self-loop appended), computed two
  ways: by a program whose dense steps are five tiled kernels with the gathers and scatter-adds between them on the host,
  and by a plain host program.

  Read over the extended reals, with every float operation exact and every change of float format the identity, both
  programs are the same composition (`Cert.GraphNet.net`): a layer is a dense product followed by an aggregation step —
  gather each entry's source row, scale it by the entry's weight `dinv(src)·dinv(dst)`, add it into the destination row —
  and between layers the bias is added and negatives are cut to zero. The kernel program fuses "add the bias, cut, multiply
  by the next matrix" into one tiled kernel and adds the last bias in a fifth; a tile of 10000 rows of a dense step is the
  same rows of the dense step of the whole table, because a row of the product depends on that row of the table alone, and the
  ten tiles cover the table. No law of arithmetic beyond that is used: the sums are the same sums, term by term, so the
  finiteness of the inputs is never needed.

  The modules: `GraphNet` states the network; `RefRun` and `RefIsNet` read the reference program's run as the network;
  `KernelRun` reads the kernel program's run with every buffer's final contents named; `TileRows` and `LibDenseRows` read
  the dense steps at a row and a column; `Region0 … Region4` give each kernel region's result array from its entry contents;
  `KernelChain` follows the contents from the launch to the result.
-/
import proofs.«162772_j27023934226652_1_alg».proof.Defs
import proofs.«162772_j27023934226652_1_alg».proof.Proof.Gen.Kernel
import proofs.«162772_j27023934226652_1_alg».proof.Proof.Gen.Kernel.Skeleton
import proofs.«162772_j27023934226652_1_alg».proof.Proof.Gen.Kernel.Launch
import proofs.«162772_j27023934226652_1_alg».proof.Proof.Gen.Kernel.Points
import proofs.«162772_j27023934226652_1_alg».proof.Proof.Gen.Kernel.Frame
import proofs.«162772_j27023934226652_1_alg».proof.Proof.Gen.KernelIdeal
import proofs.«162772_j27023934226652_1_alg».proof.Proof.Gen.KernelIdeal.Skeleton
import proofs.«162772_j27023934226652_1_alg».proof.Proof.Gen.KernelIdeal.Launch
import proofs.«162772_j27023934226652_1_alg».proof.Proof.Gen.KernelIdeal.Points
import proofs.«162772_j27023934226652_1_alg».proof.Proof.Gen.KernelIdeal.Frame
import proofs.«162772_j27023934226652_1_alg».proof.Proof.Gen.ReferenceIdeal
import proofs.«162772_j27023934226652_1_alg».proof.Proof.Gen.Pre_finite_inputs
import proofs.«162772_j27023934226652_1_alg».proof.Proof.KernelRun
import proofs.«162772_j27023934226652_1_alg».proof.Proof.KernelChain
import proofs.«162772_j27023934226652_1_alg».proof.Proof.RefIsNet
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the network of the argument arrays in their result buffer; from memories agreeing on the
    arguments that is one array. -/
theorem algebraic : Cert.algebraic_KernelIdeal_ReferenceIdeal := by
  intro m ρ m' ρ' _ hagree
  refine ⟨fun c => Cert.GraphNet.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.RefValue.run_net (F := Ideal) m' ρ')
    obtain ⟨h0, h1, h2, h3, h4, h5, h6, h7, h8, h9⟩ := hagree c
    rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
